-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x64 : Shape := ⟨2, ![64, 64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x64 .f32) (main_arg3 : FVec F S64 .f32) (main_arg4 : FVec F S64x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S4000x512 : Shape := ⟨2, ![4000, 512]⟩
abbrev S4000x64 : Shape := ⟨2, ![4000, 64]⟩
abbrev S1700000x64 : Shape := ⟨2, ![1700000, 64]⟩
abbrev S1x64 : Shape := ⟨2, ![1, 64]⟩
abbrev S20000x64 : Shape := ⟨2, ![20000, 64]⟩
abbrev S10000x64 : Shape := ⟨2, ![10000, 64]⟩

abbrev nBuf : Space → Nat
  | .hbm => 84
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S4000x512, .f32⟩
  | .local _ .vmem, ⟨1, _⟩ => ⟨S4000x512, .f32⟩
  | .local _ .vmem, ⟨2, _⟩ => ⟨S512x64, .f32⟩
  | .local _ .vmem, ⟨3, _⟩ => ⟨S4000x64, .f32⟩
  | .local _ .vmem, ⟨4, _⟩ => ⟨S4000x64, .f32⟩
  | .local _ .vmem, ⟨5, _⟩ => ⟨S20000x64, .f32⟩
  | .local _ .vmem, ⟨6, _⟩ => ⟨S20000x64, .f32⟩
  | .local _ .vmem, ⟨7, _⟩ => ⟨S1x64, .f32⟩
  | .local _ .vmem, ⟨8, _⟩ => ⟨S20000x64, .f32⟩
  | .local _ .vmem, ⟨9, _⟩ => ⟨S20000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S20000x64, .f32⟩
  | .local _ .vmem, ⟨16, _⟩ => ⟨S20000x64, .f32⟩
  | .local _ .vmem, ⟨17, _⟩ => ⟨S1x64, .f32⟩
  | .local _ .vmem, ⟨18, _⟩ => ⟨S20000x64, .f32⟩
  | .local _ .vmem, ⟨19, _⟩ => ⟨S20000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S20000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S4000x64_S4000x64_0_0 : ∀ a, (![0, 0] : Fin 2 → Nat) a + S4000x64.size a ≤ S4000x64.size a
  h_S4000x64 : 0 < S4000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x512_S512x64_S4000x64_1_0_0_1_n_n_wf : DotDims.WF S4000x512 S512x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S100000x64.size a
  hwx1_0 : ∀ i : grid1.Coords, EltTy.bits .f32 = 32 ∨ (Rect.block (s := S100000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x64.size a ≤ S100000x64.size a
  hwx1_2 : ∀ i : grid1.Coords, EltTy.bits .f32 = 32 ∨ (Rect.block (s := S100000x64) S20000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x64.size a ≤ S100000x64.size a
  hwx3_0 : ∀ i : grid3.Coords, EltTy.bits .f32 = 32 ∨ (Rect.block (s := S100000x64) S20000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20000x64.size a ≤ S100000x64.size a
  hwx3_2 : ∀ i : grid3.Coords, EltTy.bits .f32 = 32 ∨ (Rect.block (s := S100000x64) S20000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x512_S512x64_S4000x64_1_0_0_1_n_n : DotDims S4000x512 S512x64 S4000x64 where
  lhsContracting := [1]
  rhsContracting := [0]
  lhsNonContracting := [0]
  rhsNonContracting := [1]
  lhsBatch := []
  rhsBatch := []
  wf := dot_S4000x512_S512x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S20000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S20000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S20000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x64_S100000x64_1_0_0_1_n_n_wf : DotDims.WF S100000x512 S512x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.HostSpec.lean ====
/-
  The host-side graph convolution shared by the kernel's program and the reference, as named functions.

  With E = 1 600 000 edges and N = 100 000 nodes, `edge_index` is a 2 × E integer array. A self loop is
  appended for every node: `srcV e` and `dstV e` are the E + N source and destination nodes. The degree of
  node n counts the edges ending in n (`deg`), `dinv` is deg^(-1/2) where the degree is positive and 0 elsewhere,
  and the weight of edge j is dinv[src j] · dinv[dst j] (`normOf`). One propagation step (`aggOf`) sends row
  src j of a node-feature matrix h, scaled by the edge's weight, to row dst j and adds up what arrives:
        (aggOf … h) n = Σ_{j : dst j = n} norm j · h (src j).
  A negative index is first shifted by N (`wrap`), as jnp indexing does. Both programs apply exactly these
  operations; nothing below is ever opened: the two sides are compared as the same functions of equal arguments.

  A layer is  h ↦ aggOf (h · W) + b, the first one followed by max(·, 0):
        out = agg (relu (agg (x · W1) + b1) · W2) + b2 .
-/
import proofs.«135768_j36936718745769_1_alg».proof.ReferenceIdeal
import proofs.«135768_j36936718745769_1_alg».proof.Proof.Gen.ReferenceIdeal

noncomputable section

namespace Cert.Gcn

open Cert.ReferenceIdeal Cert.ReferenceIdeal.Gen Idealize.ShloMosaic

variable {F : FTy → Type} [FloatOps F]

/-- An array of E + N entries as an (E + N) × 1 column. -/
def col {α : Type} (v : S1700000.Idx → α) : S1700000x1.Idx → α :=
  broadcastInDim S1700000x1 ![0] bcast_S1700000_S1700000x1_0 v

/-- A negative node index counts from the end: n < 0 ↦ n + N. -/
def wrap (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- Row `r` of `edge_index` followed by the self loops 0, 1, …, N − 1. -/
def srcV (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

def dstV (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- The degree of every node: one is added at the destination of every edge. -/
def deg (v6 : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (col v6)
    (broadcastInDim S1700000 ![] bcast_S_S1700000 (constant S_ .f32 0x3F800000#32))

/-- deg^(-1/2) where the degree is positive, 0 elsewhere. -/
def dinv (v6 : (⟨S1700000, .i32⟩ : BufTy).Contents (Elt F)) : (⟨S100000, .f32⟩ : BufTy).Contents (Elt F) :=
  select (cmpf (F := F) .ogt (deg v6) (broadcastInDim S100000 ![] bcast_S_S100000 (constant S_ .f32 0x00000000#32)))
    (Host.rsqrt (deg v6))
    (broadcastInDim S100000 ![] bcast_S_S100000 (id (constant S_ .f32 0x00000000#32)))

/-- The weight of every edge: dinv at its source times dinv at its destination. -/
def normOf (v3 v6 : (⟨S1700000, .i32⟩ : BufTy).Contents (Elt F)) : (⟨S1700000, .f32⟩ : BufTy).Contents (Elt F) :=
  mulf (Host.gather gather_S100000_S1700000x1_S1700000_n_0_n_n_0_1_1 (dinv v6) (col (wrap v3)))
    (Host.gather gather_S100000_S1700000x1_S1700000_n_0_n_n_0_1_1 (dinv v6) (col (wrap v6)))

/-- One propagation step: row `src j` of `h` times the edge's weight, added into row `dst j`. -/
def aggOf (v3 v6 : (⟨S1700000, .i32⟩ : BufTy).Contents (Elt F)) (nrm : (⟨S1700000, .f32⟩ : BufTy).Contents (Elt F))
    (h : (⟨S100000x64, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (col v6)
    (mulf (Host.gather gather_S100000x64_S1700000x1_S1700000x64_1_0_n_n_0_1_164 h (col (wrap v3)))
      (broadcastInDim S1700000x64 ![0, 1] bcast_S1700000x1_S1700000x64_0_1 (col nrm)))

/-- The propagation step of the graph `e`. -/
def agg (e : (⟨S2x1600000, .i32⟩ : BufTy).Contents (Elt F)) (h : (⟨S100000x64, .f32⟩ : BufTy).Contents (Elt F)) :
    (⟨S100000x64, .f32⟩ : BufTy).Contents (Elt F) :=
  aggOf (srcV e) (dstV e) (normOf (srcV e) (dstV e)) h

/-- x · W1: N × 512 by 512 × 64. -/
def mm1 (x : (⟨S100000x512, .f32⟩ : BufTy).Contents (Elt F)) (w : (⟨S512x64, .f32⟩ : BufTy).Contents (Elt F)) :
    (⟨S100000x64, .f32⟩ : BufTy).Contents (Elt F) :=
  Host.dotGeneral dot_S100000x512_S512x64_S100000x64_1_0_0_1_n_n none x w

/-- h · W2: N × 64 by 64 × 64. -/
def mm2 (h : (⟨S100000x64, .f32⟩ : BufTy).Contents (Elt F)) (w : (⟨S64x64, .f32⟩ : BufTy).Contents (Elt F)) :
    (⟨S100000x64, .f32⟩ : BufTy).Contents (Elt F) :=
  Host.dotGeneral dot_S100000x64_S64x64_S100000x64_1_0_0_1_n_n none h w

/-- A bias of 64 entries as a 1 × 64 row. -/
def rowOf (b : (⟨S64, .f32⟩ : BufTy).Contents (Elt F)) : (⟨S1x64, .f32⟩ : BufTy).Contents (Elt F) :=
  broadcastInDim S1x64 ![1] bcast_S64_S1x64_1 b

/-- The row added to every row of an N × 64 matrix. -/
def addRow (a : (⟨S100000x64, .f32⟩ : BufTy).Contents (Elt F)) (r : (⟨S1x64, .f32⟩ : BufTy).Contents (Elt F)) :
    (⟨S100000x64, .f32⟩ : BufTy).Contents (Elt F) :=
  addf a (broadcastInDim S100000x64 ![0, 1] bcast_S1x64_S100000x64_0_1 r)

/-- max(·, 0), entry by entry. -/
def relu (a : (⟨S100000x64, .f32⟩ : BufTy).Contents (Elt F)) : (⟨S100000x64, .f32⟩ : BufTy).Contents (Elt F) :=
  maximumf a (broadcastInDim S100000x64 ![] bcast_S_S100000x64 (constant S_ .f32 0x00000000#32))

/-- The two-layer network: agg (relu (agg (x · W1) + b1) · W2) + b2. -/
def out (x : (⟨S100000x512, .f32⟩ : BufTy).Contents (Elt F)) (e : (⟨S2x1600000, .i32⟩ : BufTy).Contents (Elt F))
    (w1 : (⟨S512x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F)) :
    (⟨S100000x64, .f32⟩ : BufTy).Contents (Elt F) :=
  addRow (agg e (mm2 (relu (addRow (agg e (mm1 x w1)) (rowOf b1))) w2)) (rowOf b2)

end Cert.Gcn

end
-- ==== Proof.RefValue.lean ====
/-
  The reference computes the two-layer network: its result, as the composition of its operations on the
  argument arrays, is `Gcn.out` of the arguments — the same operations, grouped and named.
-/
import proofs.«135768_j36936718745769_1_alg».proof.Proof.HostSpec
import proofs.«135768_j36936718745769_1_alg».proof.Proof.RunP

noncomputable section

namespace Cert.Gcn

open Cert.ReferenceIdeal Cert.ReferenceIdeal.Gen Idealize.ShloMosaic Idealize.ShloMosaic.TcCoe Idealize.SL.Sem

variable {F : FTy → Type} [FloatOps F]

set_option maxRecDepth 8192 in
/-- The reference's result is `out` of its six arguments. -/
theorem ref_result (m : (ℓ : Loc nD τ sig) → Buf (Elt F) ℓ) (c : Dev nD) :
    Cert.ReferenceIdeal.ValueP.res_main_v64 m c
      = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v64
  rfl

end Cert.Gcn

end
-- ==== Proof.KRun.lean ====
/-
  The kernel's program, run: every execution ends, the six argument arrays are as launched, and the result array
  holds what the fourth kernel region's write-backs leave in it — the last of the buffer contents followed through
  the program: the host operations before the first matrix product, the product x · W1 block by block, the first
  propagation, the bias and max(·, 0), the product with W2, the second propagation, the last bias.
-/
import proofs.«135768_j36936718745769_1_alg».proof.Proof.Gen.KernelIdeal.Frame

set_option maxRecDepth 16384

noncomputable section

namespace Cert.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates without a fault; the result array ends at the
    contents the last region leaves (`W9`, the buffer contents after the whole program) and the arguments end unchanged. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.Gcn

end
-- ==== Proof.KHostPre.lean ====
/-
  The host operations before the first kernel region, read back.

  From the launch memory they compute, from `edge_index` alone: the sources and destinations with the self
  loops appended (buffers %3 and %6) and the edge weights dinv[src] · dinv[dst] (buffer %29). These are the
  same operations the reference applies, so each buffer holds the named function of `edge_index`. No float
  argument array is written by them.
-/
import proofs.«135768_j36936718745769_1_alg».proof.Proof.Gen.KernelIdeal.Frame
import proofs.«135768_j36936718745769_1_alg».proof.Proof.HostSpec
import Idealize.ShloMosaic.Lib.StableHlo.Run
import Idealize.ShloMosaic.PureOps.Ideal

set_option maxRecDepth 16384

noncomputable section

namespace Cert.Gcn

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The sources with the self loops, in buffer %3 when the first region is entered. -/
theorem pre_src (c : Dev nD) :
    W3 m ρ c (Proc.devRef .tc main_v3) = srcV (m ((c.tc : Thread nD τ).loc main_arg1)) := by
  show StableHlo.after hostOps0_2 (StableHlo.after hostOps0_1 (StableHlo.after hostOps0 (W0 m ρ c))) (Proc.devRef .tc main_v3) = _
  simp only [hostOps0, hostOps0_1, hostOps0_2]
  after_results_simp
  rfl

/-- The destinations with the self loops, in buffer %6. -/
theorem pre_dst (c : Dev nD) :
    W3 m ρ c (Proc.devRef .tc main_v6) = dstV (m ((c.tc : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  after_results_simp
  rfl

/-! The edge weights, in three steps: the degree's comparison and inverse square root (the first stretch),
    the choice between them (the `where`), the two look-ups and their product (the last stretch). Each step is read
    off a stretch of operations over ANY contents `Vv` it starts from. -/

/-- deg > 0, after the first stretch. -/
theorem s0_pos (Vv : Valuation τ sig (Elt Ideal)) :
    StableHlo.after hostOps0 Vv (Proc.devRef .tc main_v12)
      = cmpf (F := Ideal) .ogt (deg (dstV (Vv (Proc.devRef .tc main_arg1))))
          (broadcastInDim Cert.ReferenceIdeal.S100000 ![] Cert.ReferenceIdeal.Facts₀.bcast_S_S100000
            (constant Cert.ReferenceIdeal.S_ .f32 0x00000000#32)) := by
  simp only [hostOps0]
  after_results_simp
  rfl

/-- deg^(-1/2), after the first stretch. -/
theorem s0_rsqrt (Vv : Valuation τ sig (Elt Ideal)) :
    StableHlo.after hostOps0 Vv (Proc.devRef .tc main_v13) = Host.rsqrt (deg (dstV (Vv (Proc.devRef .tc main_arg1)))) := by
  simp only [hostOps0]
  after_results_simp
  rfl

/-- The zero the `where` falls back to. -/
theorem s0_zero (Vv : Valuation τ sig (Elt Ideal)) :
    StableHlo.after hostOps0 Vv (Proc.devRef .tc main_cst_2) = constant (F := Ideal) Cert.ReferenceIdeal.S_ .f32 0x00000000#32 := by
  simp only [hostOps0]
  after_results_simp

/-- The `where`: its three operations over any contents. -/
theorem s1_where (Vv : Valuation τ sig (Elt Ideal)) :
    StableHlo.after hostOps0_1 Vv (Proc.devRef .tc main_v14)
      = select (Vv (Proc.devRef .tc main_v12)) (Vv (Proc.devRef .tc main_v13))
          (broadcastInDim Cert.ReferenceIdeal.S100000 ![] Cert.ReferenceIdeal.Facts₀.bcast_S_S100000 (id (Vv (Proc.devRef .tc main_cst_2)))) := by
  simp only [hostOps0_1]
  after_results
  rfl

/-- The two look-ups of dinv and their product: the last stretch over any contents. -/
theorem s2_norm (Vv : Valuation τ sig (Elt Ideal)) :
    StableHlo.after hostOps0_2 Vv (Proc.devRef .tc main_v29)
      = mulf (F := Ideal) (φ := .f32) (Host.gather Cert.ReferenceIdeal.gather_S100000_S1700000x1_S1700000_n_0_n_n_0_1_1 (Vv (Proc.devRef .tc main_v14)) (col (wrap (F := Ideal) (Vv (Proc.devRef .tc main_v3)))))
          (Host.gather Cert.ReferenceIdeal.gather_S100000_S1700000x1_S1700000_n_0_n_n_0_1_1 (Vv (Proc.devRef .tc main_v14)) (col (wrap (F := Ideal) (Vv (Proc.devRef .tc main_v6))))) := by
  simp only [hostOps0_2]
  after_results_simp
  rfl

/-- The sources and destinations are already there after the `where`. -/
theorem mid_src (c : Dev nD) :
    W2 m ρ c (Proc.devRef .tc main_v3) = srcV (m ((c.tc : Thread nD τ).loc main_arg1)) := by
  show StableHlo.after hostOps0_1 (StableHlo.after hostOps0 (W0 m ρ c)) (Proc.devRef .tc main_v3) = _
  simp only [hostOps0, hostOps0_1]
  after_results_simp
  rfl
theorem mid_dst (c : Dev nD) :
    W2 m ρ c (Proc.devRef .tc main_v6) = dstV (m ((c.tc : Thread nD τ).loc main_arg1)) := by
  show StableHlo.after hostOps0_1 (StableHlo.after hostOps0 (W0 m ρ c)) (Proc.devRef .tc main_v6) = _
  simp only [hostOps0, hostOps0_1]
  after_results_simp
  rfl

/-- The edge weights, in buffer %29. -/
theorem pre_norm (c : Dev nD) :
    W3 m ρ c (Proc.devRef .tc main_v29)
      = normOf (srcV (m ((c.tc : Thread nD τ).loc main_arg1))) (dstV (m ((c.tc : Thread nD τ).loc main_arg1))) := by
  have hw : W2 m ρ c (Proc.devRef .tc main_v14) = dinv (dstV (m ((c.tc : Thread nD τ).loc main_arg1))) := by
    refine (s1_where (W1 m ρ c)).trans ?_
    rw [show W1 m ρ c (Proc.devRef .tc main_v12) = _ from s0_pos (W0 m ρ c),
      show W1 m ρ c (Proc.devRef .tc main_v13) = _ from s0_rsqrt (W0 m ρ c),
      show W1 m ρ c (Proc.devRef .tc main_cst_2) = _ from s0_zero (W0 m ρ c)]
    rfl
  refine (s2_norm (W2 m ρ c)).trans ?_
  rw [hw, mid_src, mid_dst]
  rfl

/-- An argument array is as launched when the first region is entered. -/
theorem pre_arg0 (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  after_results_simp
theorem pre_arg2 (c : Dev nD) : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  simp only [hostOps0, hostOps0_1, hostOps0_2]
  after_results_simp
theorem pre_arg3 (c : Dev nD) : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  simp only [hostOps0, hostOps0_1, hostOps0_2]
  after_results_simp
theorem pre_arg4 (c : Dev nD) : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  simp only [hostOps0, hostOps0_1, hostOps0_2]
  after_results_simp
theorem pre_arg5 (c : Dev nD) : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  simp only [hostOps0, hostOps0_1, hostOps0_2]
  after_results_simp

end Cert.Gcn

end
-- ==== Proof.LibPlainMatmul.lean ====
/-
  A plain matrix product `M × K` by `K × N` (the left operand contracted on its last axis, the right on its first, no
  batch axis) accumulated into the zero splat, read at coordinates at the ideal values: entry (p, q) of the product is
  `∑ k, lhs (p, k) · rhs (k, q)` over the `K` positions of the contracted axis, a sum indexed by `Fin K`. Nothing of
  real arithmetic is used beyond `0 + x = x`, so it holds at the infinities too.
-/
import Idealize.ShloMosaic.Lib.ValueIdx
import Idealize.ShloMosaic.PureOps.Ideal.Laws

namespace Cert.PlainMatmul

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- The left operand is read at (row of the result, contraction position). -/
theorem lhsIdx_plain (M K N : ℕ) (p : Fin M) (q : Fin N) (k : Fin K) :
    (DotDims.plain M K N).lhsIdx (ix2 p q) ((contrFin M K N).symm k) = ix2 p k := by
  funext a
  apply Fin.ext
  match a with
  | ⟨0, _⟩ => rfl
  | ⟨1, _⟩ => exact contrEquiv1_symm_val (DotDims.plain M K N) K rfl rfl k

/-- The right operand is read at (contraction position, column of the result). -/
theorem rhsIdx_plain (M K N : ℕ) (p : Fin M) (q : Fin N) (k : Fin K) :
    (DotDims.plain M K N).rhsIdx (ix2 p q) ((contrFin M K N).symm k) = ix2 k q := by
  funext a
  apply Fin.ext
  match a with
  | ⟨0, _⟩ => exact contrEquiv1_symm_val (DotDims.plain M K N) K rfl rfl k
  | ⟨1, _⟩ => rfl

/-- Entry (p, q) of a plain product into the zero splat is the sum over the contracted axis of the operands' products. -/
theorem matmul_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrFin M K N).symm]
  exact Finset.sum_congr rfl fun k _ => by rw [lhsIdx_plain, rhsIdx_plain]

end Cert.PlainMatmul
-- ==== Proof.KRegion0.lean ====
/-
  The first kernel region: the product x · W1.

  The N × 512 left operand is cut into 25 blocks of 4000 rows; the 512 × 64 right operand is one block, the same
  at every grid point. At point t the body multiplies the t-th block of rows by the whole right operand into a zero
  accumulator (the change of float format before the product is the identity on the extended reals): entry (p, q)
  of what it stores is  Σ_k a (4000·t + p, k) · w (k, q),  entry (4000·t + p, q) of the product a · w. The 25 blocks
  fill the N × 64 output: after the region the output array IS the product of the two arrays the region found.
-/
import proofs.«135768_j36936718745769_1_alg».proof.Proof.Gen.KernelIdeal.Frame
import proofs.«135768_j36936718745769_1_alg».proof.Proof.HostSpec
import proofs.«135768_j36936718745769_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.Gcn.Region0

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The body's stored value at (p, q): row p of the block of rows against column q of the right operand. -/
theorem pay_apply (x0 : Vec Ideal S4000x512 .f32) (x1 : Vec Ideal S512x64 .f32) (p : Fin 4000) (q : Fin 64) :
    k0_pay1 x0 x1 (ix2 p q) = ∑ k : Fin 512, x0 (ix2 p k) * x1 (ix2 k q) := by
  unfold k0_pay1
  exact Cert.PlainMatmul.matmul_zero_apply 4000 512 64 none _ _ p q

/-- The whole product at (P, q): row P of the left operand against column q of the right one. -/
theorem spec_apply (a : FVec Ideal ⟨2, ![100000, 512]⟩ .f32) (w : FVec Ideal ⟨2, ![512, 64]⟩ .f32) (P : Fin 100000) (q : Fin 64) :
    mm1 (F := Ideal) a w (ix2 P q) = ∑ k : Fin 512, a (ix2 P k) * w (ix2 k q) := by
  show FloatOps.dotGeneral (DotDims.plain 100000 512 64) none .single a w (ix2 P q) = _
  rw [Ideal.dotGeneral_apply, ← Equiv.sum_comp (Cert.PlainMatmul.contrFin 100000 512 64).symm]
  exact Finset.sum_congr rfl fun k _ => by rw [Cert.PlainMatmul.lhsIdx_plain, Cert.PlainMatmul.rhsIdx_plain]

/-- A block's entry, its operands read where the blocks lie in their arrays, is the whole product's entry. -/
theorem block_eq (a : FVec Ideal ⟨2, ![100000, 512]⟩ .f32) (w : FVec Ideal ⟨2, ![512, 64]⟩ .f32)
    (x0 : Vec Ideal S4000x512 .f32) (x1 : Vec Ideal S512x64 .f32) (p : Fin 4000) (q : Fin 64) (P : Fin 100000)
    (h0 : ∀ k : Fin 512, x0 (ix2 p k) = a (ix2 P k)) (h1 : ∀ k : Fin 512, x1 (ix2 k q) = w (ix2 k q)) :
    (∑ k : Fin 512, x0 (ix2 p k) * x1 (ix2 k q)) = mm1 (F := Ideal) a w (ix2 P q) := by
  rw [spec_apply]
  exact Finset.sum_congr rfl fun k _ => by rw [h0 k, h1 k]

section
variable (V : (c : Dev nD) → (b : Ref sig .tc) → Buf (Elt Ideal) ((c : Thread nD τ).loc b))

/-- The index maps over the 25 grid points: the left operand's block moves with the output block down the rows,
    the right operand stays, and the output's block index is the point's number. -/
theorem idx_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) ≤ 24 :=
  (by decide +kernel : ∀ t : Fin grid0.N, _)

/-- Every block of rows is some point's. -/
theorem idx_onto : ∀ q0 : Fin 25, ∃ t : Fin cfg0.N, win0_2.index t = ![q0.val, 0] :=
  (by decide +kernel : ∀ q0 : Fin 25, ∃ t : Fin grid0.N, win0_2.index t = ![q0.val, 0])

/-- What point `t` writes back is block `t` of the product. -/
theorem flushed_eq (c : Dev nD) (t : Fin cfg0.N) :
    (dat0 V c).flushed 2 t = ((cfg0.win 2).blk t).view.read (Elt Ideal) (mm1 (V c main_arg0) (V c main_arg2)) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x64) hz]
  obtain ⟨e0, e1, e2, e3, e4, e5⟩ := idx_facts t
  funext j
  obtain ⟨p, q, rfl⟩ : ∃ (p : Fin 4000) (q : Fin 64), j = ix2 p q := ⟨j 0, j 1, eq_ix2 j⟩
  refine (pay_apply (iblk0 V c 0 t) (iblk0 V c 1 t) p q).trans ?_
  have hP : win0_2.index t (0 : Fin 2) * 4000 + p.val < 100000 := by have := p.isLt; omega
  have h2 : ((cfg0.win 2).blk t).view.emb (ix2 p q) = ix2 (⟨win0_2.index t (0 : Fin 2) * 4000 + p.val, hP⟩ : Fin 100000) q := by
    funext a; apply Fin.ext
    match a with
    | ⟨0, _⟩ => show win0_2.index t (0 : Fin 2) * 4000 + 1 * p.val = win0_2.index t (0 : Fin 2) * 4000 + p.val; omega
    | ⟨1, _⟩ => show win0_2.index t (1 : Fin 2) * 64 + 1 * q.val = q.val; omega
  show _ = mm1 (V c main_arg0) (V c main_arg2) (((cfg0.win 2).blk t).view.emb (ix2 p q))
  rw [h2]
  refine block_eq (V c main_arg0) (V c main_arg2) (iblk0 V c 0 t) (iblk0 V c 1 t) p q _ (fun k => ?_) (fun k => ?_)
  · show V c main_arg0 (((cfg0.win 0).blk t).view.emb (ix2 p k)) = _
    refine congrArg (V c main_arg0) ?_
    funext a; apply Fin.ext
    match a with
    | ⟨0, _⟩ => show win0_0.index t (0 : Fin 2) * 4000 + 1 * p.val = win0_2.index t (0 : Fin 2) * 4000 + p.val; omega
    | ⟨1, _⟩ => show win0_0.index t (1 : Fin 2) * 512 + 1 * k.val = k.val; omega
  · show V c main_arg2 (((cfg0.win 1).blk t).view.emb (ix2 k q)) = _
    refine congrArg (V c main_arg2) ?_
    funext a; apply Fin.ext
    match a with
    | ⟨0, _⟩ => show win0_1.index t (0 : Fin 2) * 512 + 1 * k.val = k.val; omega
    | ⟨1, _⟩ => show win0_1.index t (1 : Fin 2) * 64 + 1 * q.val = q.val; omega

/-- An index of the array is in point `t`'s block iff each coordinate is in the block's range. -/
theorem mem_blk (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v30).slice (win0_2.rect t)).set ↔ _
  rw [View.set_slice_whole, Rect.mem_set_unit]
  exact Iff.rfl

/-- The 25 blocks of rows fill the array. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- After the region its output array is the product of the two arrays it found. -/
theorem final (c : Dev nD) : (dat0 V c).arrAt 2 cfg0.N = mm1 (V c main_arg0) (V c main_arg2) :=
  (dat0 V c).arrAt_eq_of_cover 2 (mm1 (V c main_arg0) (V c main_arg2)) (fun t _ => flushed_eq V c t) (cover)

end

end Cert.Gcn.Region0

end
-- ==== Proof.LibRowBroadcast.lean ====
/-
  Two broadcasts along an axis of length one, read at coordinates: a 1 × b row laid along the rows of an a × b matrix,
  and a 1 × 1 cell laid along an a × 1 column. Entry (p, d) of the first is entry (0, d) of the row; every entry of the
  second is the cell: a broadcast reads position 0 of each unit axis of its operand and the result's own coordinate on
  the others.
-/
import Idealize.ShloMosaic.Lib.ValueIdx
import Idealize.ShloMosaic.Lib.Pipeline.Value

namespace Cert.Lib.RowBroadcast

open Idealize.ShloMosaic Idealize.ShloMosaic.ValueIdx

variable {α : Type}

/-- A 1 × b row laid along every row of an a × b matrix (b ≠ 1): entry (p, d) is entry (0, d) of the row. -/
theorem broadcastTo_1b_ab_apply {a b : ℕ} (hb : b ≠ 1) (v : (⟨2, ![1, b]⟩ : Shape).Idx → α)
    (h : (⟨2, ![1, b]⟩ : Shape).Broadcasts ⟨2, ![a, b]⟩) (p : Fin a) (d : Fin b) :
    broadcastTo ⟨2, ![a, b]⟩ v h (ix2 p d) = v (ix2 (0 : Fin 1) d) := by
  refine broadcastTo_apply v h (ix2 p d) (ix2 (0 : Fin 1) d) fun ax => ?_
  match ax with
  | ⟨0, _⟩ => rfl
  | ⟨1, _⟩ =>
    show d.val = if b = 1 then 0 else d.val
    rw [if_neg hb]

/-- A 1 × 1 cell laid along an a × 1 column: every entry is the cell. -/
theorem broadcastTo_11_a1_apply {a : ℕ} (v : (⟨2, ![1, 1]⟩ : Shape).Idx → α)
    (h : (⟨2, ![1, 1]⟩ : Shape).Broadcasts ⟨2, ![a, 1]⟩) (p : Fin a) :
    broadcastTo ⟨2, ![a, 1]⟩ v h (ix2 p (0 : Fin 1)) = v (ix2 (0 : Fin 1) (0 : Fin 1)) := by
  refine broadcastTo_apply v h (ix2 p (0 : Fin 1)) (ix2 (0 : Fin 1) (0 : Fin 1)) fun ax => ?_
  match ax with
  | ⟨0, _⟩ => rfl
  | ⟨1, _⟩ => rfl

end Cert.Lib.RowBroadcast
-- ==== Proof.KRegion1.lean ====
/-
  The second kernel region: the bias and max(·, 0).

  The N × 64 array is cut into 5 blocks of 20 000 rows; the 1 × 64 bias row is one block, the same at every
  grid point. At point t the body stores  max (a + r, 0)  for the t-th block of rows: entry (p, q) of the
  block is  max (a (20000·t + p, q) + r (0, q), 0). These are the rows 20000·t … 20000·t + 19999 of the
  whole-array function  relu (addRow a r), and the 5 blocks fill the array: after the region the output array
  IS that function of the two arrays the region found.
-/
import proofs.«135768_j36936718745769_1_alg».proof.Proof.Gen.KernelIdeal.Frame
import proofs.«135768_j36936718745769_1_alg».proof.Proof.HostSpec
import proofs.«135768_j36936718745769_1_alg».proof.Proof.LibRowBroadcast
import Idealize.ShloMosaic.Lib.Pipeline.Value
import Idealize.ShloMosaic.Lib.ValueIdx
import Idealize.ShloMosaic.PureOps.Ideal.Laws

set_option maxRecDepth 16384

noncomputable section

namespace Cert.Gcn.Region1

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The body's stored value at (p, q): the block's entry plus the bias row's entry of that column, against zero. -/
theorem pay_apply (x0 : Vec Ideal S20000x64 .f32) (x1 : Vec Ideal S1x64 .f32) (p : Fin 20000) (q : Fin 64) :
    k1_pay1 x0 x1 (ix2 p q) = max (x0 (ix2 p q) + x1 (ix2 (0 : Fin 1) q)) (Ideal.ofBits .f32 0x00000000#32) := by
  unfold k1_pay1
  rw [shapeCast_self, shapeCast_self, maximumf_apply, addf_apply, broadcast_apply,
    Cert.Lib.RowBroadcast.broadcastTo_1b_ab_apply (by decide)]
  rfl

/-- The whole-array function at (P, q): the same formula at the array's own row. -/
theorem spec_apply (a : (⟨Cert.ReferenceIdeal.S100000x64, .f32⟩ : BufTy).Contents (Elt Ideal))
    (r : (⟨Cert.ReferenceIdeal.S1x64, .f32⟩ : BufTy).Contents (Elt Ideal)) (P : Fin 100000) (q : Fin 64) :
    relu (addRow a r) (ix2 P q) = max (a (ix2 P q) + r (ix2 (0 : Fin 1) q)) (Ideal.ofBits .f32 0x00000000#32) := by
  unfold relu addRow
  rw [maximumf_apply, addf_apply]
  congr 1
  · congr 1
    refine broadcastInDim_apply _ _ r (ix2 P q) (ix2 (0 : Fin 1) q) fun ax => ?_
    match ax with
    | ⟨0, _⟩ => rfl
    | ⟨1, _⟩ => rfl

/-- A block's entry, read where the block lies in the array, is the whole-array function's entry. -/
theorem block_eq (a : (⟨Cert.ReferenceIdeal.S100000x64, .f32⟩ : BufTy).Contents (Elt Ideal))
    (r : (⟨Cert.ReferenceIdeal.S1x64, .f32⟩ : BufTy).Contents (Elt Ideal))
    (x0 : Vec Ideal S20000x64 .f32) (x1 : Vec Ideal S1x64 .f32) (p : Fin 20000) (q : Fin 64) (P : Fin 100000)
    (h0 : x0 (ix2 p q) = a (ix2 P q)) (h1 : x1 (ix2 (0 : Fin 1) q) = r (ix2 (0 : Fin 1) q)) :
    max (x0 (ix2 p q) + x1 (ix2 (0 : Fin 1) q)) (Ideal.ofBits .f32 0x00000000#32) = relu (addRow a r) (ix2 P q) := by
  rw [h0, h1, spec_apply]

section
variable (V : (c : Dev nD) → (b : Ref sig .tc) → Buf (Elt Ideal) ((c : Thread nD τ).loc b))

/-- The index maps over the 5 grid points: the input block moves with the output block down the rows, the bias
    row stays, and the output's block index is the point's number. -/
theorem idx_facts : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) ≤ 4 :=
  (by decide +kernel : ∀ t : Fin grid1.N, _)

/-- Every block of rows is some point's. -/
theorem idx_onto : ∀ q0 : Fin 5, ∃ t : Fin cfg1.N, win1_2.index t = ![q0.val, 0] :=
  (by decide +kernel : ∀ q0 : Fin 5, ∃ t : Fin grid1.N, win1_2.index t = ![q0.val, 0])

/-- What point `t` writes back is block `t` of the whole-array function. -/
theorem flushed_eq (c : Dev nD) (t : Fin cfg1.N) :
    (dat1 V c).flushed 2 t = ((cfg1.win 2).blk t).view.read (Elt Ideal) (relu (addRow (V c main_v43) (V c main_v44))) := by
  show (cfg1.win 2).cut (grid1.coords t) ((dat1 V c).after 2 t) = _
  rw [after1_2]
  unfold out1_2
  rw [View.canon_unit_zero hz]
  simp only [View.ld_unit_zero (S := S20000x64) hz, View.ld_unit_zero (S := S1x64) hz]
  obtain ⟨e0, e1, e2, e3, e4, e5⟩ := idx_facts t
  funext j
  obtain ⟨p, q, rfl⟩ : ∃ (p : Fin 20000) (q : Fin 64), j = ix2 p q := ⟨j 0, j 1, eq_ix2 j⟩
  refine (pay_apply (iblk1 V c 0 t) (iblk1 V c 1 t) p q).trans ?_
  have hP : win1_2.index t (0 : Fin 2) * 20000 + p.val < 100000 := by have := p.isLt; omega
  show _ = relu (addRow (V c main_v43) (V c main_v44)) (((cfg1.win 2).blk t).view.emb (ix2 p q))
  have h2 : ((cfg1.win 2).blk t).view.emb (ix2 p q) = ix2 (⟨win1_2.index t (0 : Fin 2) * 20000 + p.val, hP⟩ : Fin 100000) q := by
    funext a; apply Fin.ext
    match a with
    | ⟨0, _⟩ => show win1_2.index t (0 : Fin 2) * 20000 + 1 * p.val = win1_2.index t (0 : Fin 2) * 20000 + p.val; omega
    | ⟨1, _⟩ => show win1_2.index t (1 : Fin 2) * 64 + 1 * q.val = q.val; omega
  rw [h2]
  refine block_eq (V c main_v43) (V c main_v44) (iblk1 V c 0 t) (iblk1 V c 1 t) p q _ ?_ ?_
  · show V c main_v43 (((cfg1.win 0).blk t).view.emb (ix2 p q)) = _
    refine congrArg (V c main_v43) ?_
    funext a; apply Fin.ext
    match a with
    | ⟨0, _⟩ => show win1_0.index t (0 : Fin 2) * 20000 + 1 * p.val = win1_2.index t (0 : Fin 2) * 20000 + p.val; omega
    | ⟨1, _⟩ => show win1_0.index t (1 : Fin 2) * 64 + 1 * q.val = q.val; omega
  · show V c main_v44 (((cfg1.win 1).blk t).view.emb (ix2 (0 : Fin 1) q)) = _
    refine congrArg (V c main_v44) ?_
    funext a; apply Fin.ext
    match a with
    | ⟨0, _⟩ => show win1_1.index t (0 : Fin 2) * 1 + 1 * 0 = 0; omega
    | ⟨1, _⟩ => show win1_1.index t (1 : Fin 2) * 64 + 1 * q.val = q.val; omega

/-- An index of the array is in point `t`'s block iff each coordinate is in the block's range. -/
theorem mem_blk (t : Fin cfg1.N) (i : S100000x64.Idx) :
    i ∈ ((cfg1.win 2).blk t).view.set ↔ ∀ a : Fin 2, win1_2.index t a * S20000x64.size a ≤ (i a).val ∧ (i a).val < win1_2.index t a * S20000x64.size a + S20000x64.size a := by
  show i ∈ ((View.whole main_v45).slice (win1_2.rect t)).set ↔ _
  rw [View.set_slice_whole, Rect.mem_set_unit]
  exact Iff.rfl

/-- The 5 blocks of rows fill the array. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 20000, by omega⟩
  have q0 : win1_2.index t (0 : Fin 2) = (i 0).val / 20000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 20000 ≤ (i 0).val ∧ (i 0).val < win1_2.index t (0 : Fin 2) * 20000 + 20000; omega
  | ⟨1, _⟩ => show win1_2.index t (1 : Fin 2) * 64 ≤ (i 1).val ∧ (i 1).val < win1_2.index t (1 : Fin 2) * 64 + 64; omega

/-- After the region its output array is  relu (a + bias row)  of the arrays it found. -/
theorem final (c : Dev nD) : (dat1 V c).arrAt 2 cfg1.N = relu (addRow (V c main_v43) (V c main_v44)) :=
  (dat1 V c).arrAt_eq_of_cover 2 (relu (addRow (V c main_v43) (V c main_v44))) (fun t _ => flushed_eq V c t) (cover)

end

end Cert.Gcn.Region1

end
-- ==== Proof.KRegion2.lean ====
/-
  The third kernel region: the product h · W2.

  The N × 64 left operand is cut into 10 blocks of 10000 rows; the 64 × 64 right operand is one block, the same
  at every grid point. At point t the body multiplies the t-th block of rows by the whole right operand into a zero
  accumulator (the change of float format before the product is the identity on the extended reals): entry (p, q)
  of what it stores is  Σ_k a (10000·t + p, k) · w (k, q),  entry (10000·t + p, q) of the product a · w. The 10 blocks
  fill the N × 64 output: after the region the output array IS the product of the two arrays the region found.
-/
import proofs.«135768_j36936718745769_1_alg».proof.Proof.Gen.KernelIdeal.Frame
import proofs.«135768_j36936718745769_1_alg».proof.Proof.HostSpec
import proofs.«135768_j36936718745769_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.Gcn.Region2

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The body's stored value at (p, q): row p of the block of rows against column q of the right operand. -/
theorem pay_apply (x0 : Vec Ideal S10000x64 .f32) (x1 : Vec Ideal S64x64 .f32) (p : Fin 10000) (q : Fin 64) :
    k2_pay1 x0 x1 (ix2 p q) = ∑ k : Fin 64, x0 (ix2 p k) * x1 (ix2 k q) := by
  unfold k2_pay1
  rw [shapeCast_self]
  exact Cert.PlainMatmul.matmul_zero_apply 10000 64 64 none _ _ p q

/-- The whole product at (P, q): row P of the left operand against column q of the right one. -/
theorem spec_apply (a : FVec Ideal ⟨2, ![100000, 64]⟩ .f32) (w : FVec Ideal ⟨2, ![64, 64]⟩ .f32) (P : Fin 100000) (q : Fin 64) :
    mm2 (F := Ideal) a w (ix2 P q) = ∑ k : Fin 64, a (ix2 P k) * w (ix2 k q) := by
  show FloatOps.dotGeneral (DotDims.plain 100000 64 64) none .single a w (ix2 P q) = _
  rw [Ideal.dotGeneral_apply, ← Equiv.sum_comp (Cert.PlainMatmul.contrFin 100000 64 64).symm]
  exact Finset.sum_congr rfl fun k _ => by rw [Cert.PlainMatmul.lhsIdx_plain, Cert.PlainMatmul.rhsIdx_plain]

/-- A block's entry, its operands read where the blocks lie in their arrays, is the whole product's entry. -/
theorem block_eq (a : FVec Ideal ⟨2, ![100000, 64]⟩ .f32) (w : FVec Ideal ⟨2, ![64, 64]⟩ .f32)
    (x0 : Vec Ideal S10000x64 .f32) (x1 : Vec Ideal S64x64 .f32) (p : Fin 10000) (q : Fin 64) (P : Fin 100000)
    (h0 : ∀ k : Fin 64, x0 (ix2 p k) = a (ix2 P k)) (h1 : ∀ k : Fin 64, x1 (ix2 k q) = w (ix2 k q)) :
    (∑ k : Fin 64, x0 (ix2 p k) * x1 (ix2 k q)) = mm2 (F := Ideal) a w (ix2 P q) := by
  rw [spec_apply]
  exact Finset.sum_congr rfl fun k _ => by rw [h0 k, h1 k]

section
variable (V : (c : Dev nD) → (b : Ref sig .tc) → Buf (Elt Ideal) ((c : Thread nD τ).loc b))

/-- The index maps over the 10 grid points: the left operand's block moves with the output block down the rows,
    the right operand stays, and the output's block index is the point's number. -/
theorem idx_facts : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0
    ∧ win2_2.index t (0 : Fin 2) ≤ 9 :=
  (by decide +kernel : ∀ t : Fin grid2.N, _)

/-- Every block of rows is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What point `t` writes back is block `t` of the product. -/
theorem flushed_eq (c : Dev nD) (t : Fin cfg2.N) :
    (dat2 V c).flushed 2 t = ((cfg2.win 2).blk t).view.read (Elt Ideal) (mm2 (V c main_v45) (V c main_arg4)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  refine (pay_apply (iblk2 V c 0 t) (iblk2 V c 1 t) p q).trans ?_
  have hP : win2_2.index t (0 : Fin 2) * 10000 + p.val < 100000 := by have := p.isLt; omega
  have h2 : ((cfg2.win 2).blk t).view.emb (ix2 p q) = ix2 (⟨win2_2.index t (0 : Fin 2) * 10000 + p.val, hP⟩ : Fin 100000) q := by
    funext a; apply Fin.ext
    match a with
    | ⟨0, _⟩ => show win2_2.index t (0 : Fin 2) * 10000 + 1 * p.val = win2_2.index t (0 : Fin 2) * 10000 + p.val; omega
    | ⟨1, _⟩ => show win2_2.index t (1 : Fin 2) * 64 + 1 * q.val = q.val; omega
  show _ = mm2 (V c main_v45) (V c main_arg4) (((cfg2.win 2).blk t).view.emb (ix2 p q))
  rw [h2]
  refine block_eq (V c main_v45) (V c main_arg4) (iblk2 V c 0 t) (iblk2 V c 1 t) p q _ (fun k => ?_) (fun k => ?_)
  · show V c main_v45 (((cfg2.win 0).blk t).view.emb (ix2 p k)) = _
    refine congrArg (V c main_v45) ?_
    funext a; apply Fin.ext
    match a with
    | ⟨0, _⟩ => show win2_0.index t (0 : Fin 2) * 10000 + 1 * p.val = win2_2.index t (0 : Fin 2) * 10000 + p.val; omega
    | ⟨1, _⟩ => show win2_0.index t (1 : Fin 2) * 64 + 1 * k.val = k.val; omega
  · show V c main_arg4 (((cfg2.win 1).blk t).view.emb (ix2 k q)) = _
    refine congrArg (V c main_arg4) ?_
    funext a; apply Fin.ext
    match a with
    | ⟨0, _⟩ => show win2_1.index t (0 : Fin 2) * 64 + 1 * k.val = k.val; omega
    | ⟨1, _⟩ => show win2_1.index t (1 : Fin 2) * 64 + 1 * q.val = q.val; omega

/-- An index of the array is in point `t`'s block iff each coordinate is in the block's range. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- The 10 blocks of rows fill the array. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the region its output array is the product of the two arrays it found. -/
theorem final (c : Dev nD) : (dat2 V c).arrAt 2 cfg2.N = mm2 (V c main_v45) (V c main_arg4) :=
  (dat2 V c).arrAt_eq_of_cover 2 (mm2 (V c main_v45) (V c main_arg4)) (fun t _ => flushed_eq V c t) (cover)

end

end Cert.Gcn.Region2

end
-- ==== Proof.KRegion3.lean ====
/-
  The fourth kernel region: the last bias.

  The N × 64 array is cut into 5 blocks of 20 000 rows; the 1 × 64 bias row is one block, the same at every
  grid point. At point t the body stores  a + r  for the t-th block of rows: entry (p, q) of the block is
  a (20000·t + p, q) + r (0, q). These are the rows 20000·t … 20000·t + 19999 of the whole-array function
  addRow a r, and the 5 blocks fill the array: after the region the output array IS that function of the two
  arrays the region found.
-/
import proofs.«135768_j36936718745769_1_alg».proof.Proof.Gen.KernelIdeal.Frame
import proofs.«135768_j36936718745769_1_alg».proof.Proof.HostSpec
import proofs.«135768_j36936718745769_1_alg».proof.Proof.LibRowBroadcast
import Idealize.ShloMosaic.Lib.Pipeline.Value
import Idealize.ShloMosaic.Lib.ValueIdx
import Idealize.ShloMosaic.PureOps.Ideal.Laws

set_option maxRecDepth 16384

noncomputable section

namespace Cert.Gcn.Region3

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The body's stored value at (p, q): the block's entry plus the bias row's entry of that column. -/
theorem pay_apply (x0 : Vec Ideal S20000x64 .f32) (x1 : Vec Ideal S1x64 .f32) (p : Fin 20000) (q : Fin 64) :
    k3_pay1 x0 x1 (ix2 p q) = x0 (ix2 p q) + x1 (ix2 (0 : Fin 1) q) := by
  unfold k3_pay1
  rw [shapeCast_self, shapeCast_self, addf_apply, Cert.Lib.RowBroadcast.broadcastTo_1b_ab_apply (by decide)]

/-- The whole-array function at (P, q): the same formula at the array's own row. -/
theorem spec_apply (a : (⟨Cert.ReferenceIdeal.S100000x64, .f32⟩ : BufTy).Contents (Elt Ideal))
    (r : (⟨Cert.ReferenceIdeal.S1x64, .f32⟩ : BufTy).Contents (Elt Ideal)) (P : Fin 100000) (q : Fin 64) :
    addRow a r (ix2 P q) = a (ix2 P q) + r (ix2 (0 : Fin 1) q) := by
  unfold addRow
  rw [addf_apply]
  congr 1
  refine broadcastInDim_apply _ _ r (ix2 P q) (ix2 (0 : Fin 1) q) fun ax => ?_
  match ax with
  | ⟨0, _⟩ => rfl
  | ⟨1, _⟩ => rfl

/-- A block's entry, read where the block lies in the array, is the whole-array function's entry. -/
theorem block_eq (a : (⟨Cert.ReferenceIdeal.S100000x64, .f32⟩ : BufTy).Contents (Elt Ideal))
    (r : (⟨Cert.ReferenceIdeal.S1x64, .f32⟩ : BufTy).Contents (Elt Ideal))
    (x0 : Vec Ideal S20000x64 .f32) (x1 : Vec Ideal S1x64 .f32) (p : Fin 20000) (q : Fin 64) (P : Fin 100000)
    (h0 : x0 (ix2 p q) = a (ix2 P q)) (h1 : x1 (ix2 (0 : Fin 1) q) = r (ix2 (0 : Fin 1) q)) :
    x0 (ix2 p q) + x1 (ix2 (0 : Fin 1) q) = addRow a r (ix2 P q) := by
  rw [h0, h1, spec_apply]

section
variable (V : (c : Dev nD) → (b : Ref sig .tc) → Buf (Elt Ideal) ((c : Thread nD τ).loc b))

/-- The index maps over the 5 grid points: the input block moves with the output block down the rows, the bias
    row stays, and the output's block index is the point's number. -/
theorem idx_facts : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0
    ∧ win3_2.index t (0 : Fin 2) ≤ 4 :=
  (by decide +kernel : ∀ t : Fin grid3.N, _)

/-- Every block of rows is some point's. -/
theorem idx_onto : ∀ q0 : Fin 5, ∃ t : Fin cfg3.N, win3_2.index t = ![q0.val, 0] :=
  (by decide +kernel : ∀ q0 : Fin 5, ∃ t : Fin grid3.N, win3_2.index t = ![q0.val, 0])

/-- What point `t` writes back is block `t` of the whole-array function. -/
theorem flushed_eq (c : Dev nD) (t : Fin cfg3.N) :
    (dat3 V c).flushed 2 t = ((cfg3.win 2).blk t).view.read (Elt Ideal) (addRow (V c main_v59) (V c main_v60)) := by
  show (cfg3.win 2).cut (grid3.coords t) ((dat3 V c).after 2 t) = _
  rw [after3_2]
  unfold out3_2
  rw [View.canon_unit_zero hz]
  simp only [View.ld_unit_zero (S := S20000x64) hz, View.ld_unit_zero (S := S1x64) hz]
  obtain ⟨e0, e1, e2, e3, e4, e5⟩ := idx_facts t
  funext j
  obtain ⟨p, q, rfl⟩ : ∃ (p : Fin 20000) (q : Fin 64), j = ix2 p q := ⟨j 0, j 1, eq_ix2 j⟩
  refine (pay_apply (iblk3 V c 0 t) (iblk3 V c 1 t) p q).trans ?_
  have hP : win3_2.index t (0 : Fin 2) * 20000 + p.val < 100000 := by have := p.isLt; omega
  show _ = addRow (V c main_v59) (V c main_v60) (((cfg3.win 2).blk t).view.emb (ix2 p q))
  have h2 : ((cfg3.win 2).blk t).view.emb (ix2 p q) = ix2 (⟨win3_2.index t (0 : Fin 2) * 20000 + p.val, hP⟩ : Fin 100000) q := by
    funext a; apply Fin.ext
    match a with
    | ⟨0, _⟩ => show win3_2.index t (0 : Fin 2) * 20000 + 1 * p.val = win3_2.index t (0 : Fin 2) * 20000 + p.val; omega
    | ⟨1, _⟩ => show win3_2.index t (1 : Fin 2) * 64 + 1 * q.val = q.val; omega
  rw [h2]
  refine block_eq (V c main_v59) (V c main_v60) (iblk3 V c 0 t) (iblk3 V c 1 t) p q _ ?_ ?_
  · show V c main_v59 (((cfg3.win 0).blk t).view.emb (ix2 p q)) = _
    refine congrArg (V c main_v59) ?_
    funext a; apply Fin.ext
    match a with
    | ⟨0, _⟩ => show win3_0.index t (0 : Fin 2) * 20000 + 1 * p.val = win3_2.index t (0 : Fin 2) * 20000 + p.val; omega
    | ⟨1, _⟩ => show win3_0.index t (1 : Fin 2) * 64 + 1 * q.val = q.val; omega
  · show V c main_v60 (((cfg3.win 1).blk t).view.emb (ix2 (0 : Fin 1) q)) = _
    refine congrArg (V c main_v60) ?_
    funext a; apply Fin.ext
    match a with
    | ⟨0, _⟩ => show win3_1.index t (0 : Fin 2) * 1 + 1 * 0 = 0; omega
    | ⟨1, _⟩ => show win3_1.index t (1 : Fin 2) * 64 + 1 * q.val = q.val; omega

/-- An index of the array is in point `t`'s block iff each coordinate is in the block's range. -/
theorem mem_blk (t : Fin cfg3.N) (i : S100000x64.Idx) :
    i ∈ ((cfg3.win 2).blk t).view.set ↔ ∀ a : Fin 2, win3_2.index t a * S20000x64.size a ≤ (i a).val ∧ (i a).val < win3_2.index t a * S20000x64.size a + S20000x64.size a := by
  show i ∈ ((View.whole main_v61).slice (win3_2.rect t)).set ↔ _
  rw [View.set_slice_whole, Rect.mem_set_unit]
  exact Iff.rfl

/-- The 5 blocks of rows fill the array. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto ⟨(i 0).val / 20000, by omega⟩
  have q0 : win3_2.index t (0 : Fin 2) = (i 0).val / 20000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 20000 ≤ (i 0).val ∧ (i 0).val < win3_2.index t (0 : Fin 2) * 20000 + 20000; omega
  | ⟨1, _⟩ => show win3_2.index t (1 : Fin 2) * 64 ≤ (i 1).val ∧ (i 1).val < win3_2.index t (1 : Fin 2) * 64 + 64; omega

/-- After the region its output array is  a + bias row  of the arrays it found. -/
theorem final (c : Dev nD) : (dat3 V c).arrAt 2 cfg3.N = addRow (V c main_v59) (V c main_v60) :=
  (dat3 V c).arrAt_eq_of_cover 2 (addRow (V c main_v59) (V c main_v60)) (fun t _ => flushed_eq V c t) (cover)

end

end Cert.Gcn.Region3

end
-- ==== Proof.KChain.lean ====
/-
  The buffer contents followed through the kernel's program, region by region.

  When the first region is entered the graph's sources, destinations and edge weights are in their buffers
  (functions of `edge_index` alone) and no argument array has been written. Then:
    region 0 leaves  x · W1  in %30;
    the host propagates it (%43 = aggOf … %30) and lays b1 out as a row (%44);
    region 1 leaves  max (%43 + row, 0)  in %45;
    region 2 leaves  %45 · W2  in %46;
    the host propagates it (%59 = aggOf … %46) and lays b2 out as a row (%60);
    region 3 leaves  %59 + row  in %61, the result.
  A region writes only its output array and a host operation only its own result, so the graph's three buffers and
  the later arguments are carried unchanged from stage to stage. Composed, the result is `Gcn.out` of the six
  arguments: the function the reference computes.
-/
import proofs.«135768_j36936718745769_1_alg».proof.Proof.Gen.KernelIdeal.Frame
import proofs.«135768_j36936718745769_1_alg».proof.Proof.HostSpec
import proofs.«135768_j36936718745769_1_alg».proof.Proof.KHostPre
import proofs.«135768_j36936718745769_1_alg».proof.Proof.KRegion0
import proofs.«135768_j36936718745769_1_alg».proof.Proof.KRegion1
import proofs.«135768_j36936718745769_1_alg».proof.Proof.KRegion2
import proofs.«135768_j36936718745769_1_alg».proof.Proof.KRegion3
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.Gcn

open Cert.KernelIdeal Cert.KernelIdeal.Gen
open Idealize.ShloMosaic Idealize.ShloMosaic.TcCoe Idealize.ShloMosaic.ValueIdx Idealize.SL.Sem Idealize.ShloMosaic.StableHlo

/-- A vector of 64 entries recast as a 1 × 64 row is the vector laid along the row's second axis: entry (0, q) is entry q. -/
theorem reshape_row (b : (⟨Cert.ReferenceIdeal.S64, .f32⟩ : BufTy).Contents (Elt Ideal))
    (h : Cert.ReferenceIdeal.S64.ShapeCasts Cert.ReferenceIdeal.S1x64) :
    shapeCast Cert.ReferenceIdeal.S1x64 b h = rowOf b := by
  funext j
  obtain ⟨z, q, rfl⟩ : ∃ (z : Fin 1) (q : Fin 64), j = ix2 z q := ⟨j 0, j 1, eq_ix2 j⟩
  unfold rowOf
  rw [shapeCast_apply b h (ix2 z q) (ix1 q) (by
        rw [Shape.rowMajor_val_one, Shape.rowMajor_val_two]
        have hz : z.val = 0 := by omega
        show q.val = z.val * 64 + q.val
        omega),
    broadcastInDim_apply _ _ b (ix2 z q) (ix1 q) (fun ax => by
      match ax with
      | ⟨0, _⟩ => rfl)]

/-- The propagation's host operations over ANY contents they start from: the scatter-add of the gathered, weighted rows. -/
theorem agg_stretch1 (Vv : Valuation τ sig (Elt Ideal)) :
    StableHlo.after hostOps1 Vv (Proc.devRef .tc main_v43)
      = aggOf (Vv (Proc.devRef .tc main_v3)) (Vv (Proc.devRef .tc main_v6)) (Vv (Proc.devRef .tc main_v29)) (Vv (Proc.devRef .tc main_v30)) := by
  simp only [hostOps1]
  after_results_simp
  rfl

/-- The same operations again, on the second layer's buffers. -/
theorem agg_stretch3 (Vv : Valuation τ sig (Elt Ideal)) :
    StableHlo.after hostOps3 Vv (Proc.devRef .tc main_v59)
      = aggOf (Vv (Proc.devRef .tc main_v3)) (Vv (Proc.devRef .tc main_v6)) (Vv (Proc.devRef .tc main_v29)) (Vv (Proc.devRef .tc main_v46)) := by
  simp only [hostOps3]
  after_results_simp
  rfl

variable (m : (ℓ : Loc nD τ sig) → Buf (Elt Ideal) ℓ) (ρ : Dev nD → PrngReg)

/-! ## Region 0 and the first propagation -/

/-- After region 0, %30 holds x · W1. -/
theorem at4_h (c : Dev nD) :
    W4 m ρ c (Proc.devRef .tc main_v30)
      = mm1 (m ((c.tc : Thread nD τ).loc main_arg0)) (m ((c.tc : Thread nD τ).loc main_arg2)) :=
  (W4_arr m ρ c 2).trans ((Region0.final (V3 m ρ) c).trans (congrArg₂ mm1 (pre_arg0 m ρ c) (pre_arg2 m ρ c)))

/-- The first propagation: %43 is `aggOf` of the graph's buffers and %30. -/
theorem at5_agg (c : Dev nD) :
    W5 m ρ c (Proc.devRef .tc main_v43)
      = aggOf (W4 m ρ c (Proc.devRef .tc main_v3)) (W4 m ρ c (Proc.devRef .tc main_v6))
          (W4 m ρ c (Proc.devRef .tc main_v29)) (W4 m ρ c (Proc.devRef .tc main_v30)) := by
  exact agg_stretch1 (W4 m ρ c)

/-- b1 as a row, in %44. -/
theorem at5_row (c : Dev nD) :
    W5 m ρ c (Proc.devRef .tc main_v44) = rowOf (W4 m ρ c (Proc.devRef .tc main_arg3)) := by
  show StableHlo.after hostOps1 (W4 m ρ c) (Proc.devRef .tc main_v44) = _
  simp only [hostOps1]
  after_results
  exact reshape_row _ _

/-! ## What the first propagation's host operations leave alone -/

theorem keep5_v3 (c : Dev nD) : W5 m ρ c (Proc.devRef .tc main_v3) = W4 m ρ c (Proc.devRef .tc main_v3) := by
  show StableHlo.after hostOps1 (W4 m ρ c) (Proc.devRef .tc main_v3) = _
  simp only [hostOps1]
  after_results <;> rfl
theorem keep5_v6 (c : Dev nD) : W5 m ρ c (Proc.devRef .tc main_v6) = W4 m ρ c (Proc.devRef .tc main_v6) := by
  show StableHlo.after hostOps1 (W4 m ρ c) (Proc.devRef .tc main_v6) = _
  simp only [hostOps1]
  after_results <;> rfl
theorem keep5_v29 (c : Dev nD) : W5 m ρ c (Proc.devRef .tc main_v29) = W4 m ρ c (Proc.devRef .tc main_v29) := by
  show StableHlo.after hostOps1 (W4 m ρ c) (Proc.devRef .tc main_v29) = _
  simp only [hostOps1]
  after_results <;> rfl
theorem keep5_arg4 (c : Dev nD) : W5 m ρ c (Proc.devRef .tc main_arg4) = W4 m ρ c (Proc.devRef .tc main_arg4) := by
  show StableHlo.after hostOps1 (W4 m ρ c) (Proc.devRef .tc main_arg4) = _
  simp only [hostOps1]
  after_results <;> rfl
theorem keep5_arg5 (c : Dev nD) : W5 m ρ c (Proc.devRef .tc main_arg5) = W4 m ρ c (Proc.devRef .tc main_arg5) := by
  show StableHlo.after hostOps1 (W4 m ρ c) (Proc.devRef .tc main_arg5) = _
  simp only [hostOps1]
  after_results <;> rfl
/-! ## Regions 1 and 2, the second propagation, region 3 -/

/-- After region 1, %45 holds max (%43 + row, 0). -/
theorem at6_h (c : Dev nD) :
    W6 m ρ c (Proc.devRef .tc main_v45)
      = relu (addRow (W5 m ρ c (Proc.devRef .tc main_v43)) (W5 m ρ c (Proc.devRef .tc main_v44))) :=
  (W6_arr m ρ c 2).trans (Region1.final (V5 m ρ) c)

/-- After region 2, %46 holds %45 · W2. -/
theorem at7_h (c : Dev nD) :
    W7 m ρ c (Proc.devRef .tc main_v46)
      = mm2 (W6 m ρ c (Proc.devRef .tc main_v45)) (W6 m ρ c (Proc.devRef .tc main_arg4)) :=
  (W7_arr m ρ c 2).trans (Region2.final (V6 m ρ) c)

/-- The second propagation: %59 is `aggOf` of the graph's buffers and %46. -/
theorem at8_agg (c : Dev nD) :
    W8 m ρ c (Proc.devRef .tc main_v59)
      = aggOf (W7 m ρ c (Proc.devRef .tc main_v3)) (W7 m ρ c (Proc.devRef .tc main_v6))
          (W7 m ρ c (Proc.devRef .tc main_v29)) (W7 m ρ c (Proc.devRef .tc main_v46)) := by
  exact agg_stretch3 (W7 m ρ c)

/-- b2 as a row, in %60. -/
theorem at8_row (c : Dev nD) :
    W8 m ρ c (Proc.devRef .tc main_v60) = rowOf (W7 m ρ c (Proc.devRef .tc main_arg5)) := by
  show StableHlo.after hostOps3 (W7 m ρ c) (Proc.devRef .tc main_v60) = _
  simp only [hostOps3]
  after_results
  exact reshape_row _ _

/-- After region 3, the result %61 holds %59 + row. -/
theorem at9_h (c : Dev nD) :
    W9 m ρ c (Proc.devRef .tc main_v61)
      = addRow (W8 m ρ c (Proc.devRef .tc main_v59)) (W8 m ρ c (Proc.devRef .tc main_v60)) :=
  (W9_arr m ρ c 2).trans (Region3.final (V8 m ρ) c)

/-! ## The whole program -/

/-- The kernel's result array is `Gcn.out` of the six arguments. -/
theorem kernel_result (c : Dev nD) :
    W9 m ρ c (Proc.devRef .tc main_v61)
      = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  -- the graph's buffers and the later arguments, carried from the first region's entry to each later stage
  have s4 := (W4_of_ne m ρ c main_v3 (by decide)).trans (pre_src m ρ c)
  have d4 := (W4_of_ne m ρ c main_v6 (by decide)).trans (pre_dst m ρ c)
  have n4 := (W4_of_ne m ρ c main_v29 (by decide)).trans (pre_norm m ρ c)
  have b4 := (W4_of_ne m ρ c main_arg3 (by decide)).trans (pre_arg3 m ρ c)
  have w4 := (W4_of_ne m ρ c main_arg4 (by decide)).trans (pre_arg4 m ρ c)
  have r4 := (W4_of_ne m ρ c main_arg5 (by decide)).trans (pre_arg5 m ρ c)
  have s7 := (W7_of_ne m ρ c main_v3 (by decide)).trans ((W6_of_ne m ρ c main_v3 (by decide)).trans ((keep5_v3 m ρ c).trans s4))
  have d7 := (W7_of_ne m ρ c main_v6 (by decide)).trans ((W6_of_ne m ρ c main_v6 (by decide)).trans ((keep5_v6 m ρ c).trans d4))
  have n7 := (W7_of_ne m ρ c main_v29 (by decide)).trans ((W6_of_ne m ρ c main_v29 (by decide)).trans ((keep5_v29 m ρ c).trans n4))
  have r7 := (W7_of_ne m ρ c main_arg5 (by decide)).trans ((W6_of_ne m ρ c main_arg5 (by decide)).trans ((keep5_arg5 m ρ c).trans r4))
  have w6 := (W6_of_ne m ρ c main_arg4 (by decide)).trans ((keep5_arg4 m ρ c).trans w4)
  rw [at9_h, at8_agg, at8_row, s7, d7, n7, r7, at7_h, w6, at6_h, at5_agg, at5_row, s4, d4, n4, b4, at4_h]
  rfl

end Cert.Gcn

end
-- ==== Proof.lean ====
/-
  Two layers of a graph convolution on N = 100 000 nodes with E = 1 600 000 edges:
        out = agg (relu (agg (x · W1) + b1) · W2) + b2,
  where `agg` adds a self loop to every node, weighs edge j by deg[src j]^(-1/2) · deg[dst j]^(-1/2) and adds row
  `src j` of its argument, so weighted, into row `dst j`.

  The kernel's program computes the two matrix products and the two bias steps in four tiled kernel regions
  (blocks of 4 000, 20 000, 10 000 and 20 000 rows) and leaves the propagation to the host operations between
  them; the reference does everything with host operations. The propagation is literally the same operations on
  both sides and is never opened. What differs is only: a product computed block of rows by block of rows into a
  zero accumulator after a change of float format, against one whole product (equal on the extended reals: the
  format change is the identity and each entry is the same sum over the contracted axis, 0 + s = s); the bias row
  broadcast inside a block against the bias broadcast over the whole array; and max(·, 0) inside a block against
  the whole-array max. No law that needs finiteness is used, so the precondition is never opened.

  `Gcn.out` (Proof/HostSpec.lean) is that function of the six argument arrays. The reference's composed result is
  `Gcn.out` by regrouping (Proof/RefValue.lean); the kernel's result array is `Gcn.out` by following the buffers
  through the four regions (Proof/KRegion0 … 3: each region's output array as a whole-array function of the arrays
  it finds; Proof/KHostPre, Proof/KChain: the host stretches between them).
-/
import proofs.«135768_j36936718745769_1_alg».proof.Defs
import proofs.«135768_j36936718745769_1_alg».proof.Proof.Gen.Kernel
import proofs.«135768_j36936718745769_1_alg».proof.Proof.Gen.Kernel.Skeleton
import proofs.«135768_j36936718745769_1_alg».proof.Proof.Gen.Kernel.Launch
import proofs.«135768_j36936718745769_1_alg».proof.Proof.Gen.Kernel.Points
import proofs.«135768_j36936718745769_1_alg».proof.Proof.Gen.Kernel.Frame
import proofs.«135768_j36936718745769_1_alg».proof.Proof.Gen.KernelIdeal
import proofs.«135768_j36936718745769_1_alg».proof.Proof.Gen.KernelIdeal.Skeleton
import proofs.«135768_j36936718745769_1_alg».proof.Proof.Gen.KernelIdeal.Launch
import proofs.«135768_j36936718745769_1_alg».proof.Proof.Gen.KernelIdeal.Points
import proofs.«135768_j36936718745769_1_alg».proof.Proof.Gen.KernelIdeal.Frame
import proofs.«135768_j36936718745769_1_alg».proof.Proof.Gen.ReferenceIdeal
import proofs.«135768_j36936718745769_1_alg».proof.Proof.RunP
import proofs.«135768_j36936718745769_1_alg».proof.Proof.RefValue
import proofs.«135768_j36936718745769_1_alg».proof.Proof.KRun
import proofs.«135768_j36936718745769_1_alg».proof.Proof.KChain
import proofs.«135768_j36936718745769_1_alg».proof.Proof.Gen.Pre_finite_inputs
import Idealize.ShloMosaic.Adequacy
import Idealize.ShloMosaic.Init

noncomputable section

namespace Cert.Proof

open Idealize.ShloMosaic Idealize.SL.Sem

/-- The kernel's program as printed runs, and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- On the extended reals both programs end with `Gcn.out` of their (equal) arguments in their result arrays. -/
theorem algebraic : Cert.algebraic_KernelIdeal_ReferenceIdeal := by
  intro m ρ m' ρ' _ hagree
  refine ⟨fun c => Cert.Gcn.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Gcn.kernel_result m ρ c), (h c).2⟩) (Cert.Gcn.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.Gcn.ref_result, (hagree c).1, (hagree c).2.1, (hagree c).2.2.1, (hagree c).2.2.2.1, (hagree c).2.2.2.2.1,
      (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
